-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1250000 : Shape := ⟨2, ![2, 1250000]⟩
abbrev S1250000 : Shape := ⟨1, ![1250000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part3 {F : FTy → Type} [FloatOps F] (main_arg13 : FVec F S64 .f32) (main_v46 : IVec S_ 1) (main_v49 : IVec S64x64 1) (main_c_19 : IVec S_ 1) : IVec S_ 1 :=
  let main_v50 : IVec S_ 1 := (fun x v => Host.reduce IntOp.andi x v reducesTo_S64x64_S_d0_1 h_S_) main_v49 main_c_19
  let main_v51 : IVec S_ 1 := andi main_v46 main_v50
  let main_v52 : FVec F S64 .f32 := Host.absf main_arg13
  let main_cst_20 : FVec F S_ .f32 := constant S_ .f32 0x7F800000#32
  let main_v53 : FVec F S64 .f32 := broadcastInDim S64 ![] bcast_S_S64 main_cst_20
  let main_v54 : IVec S64 1 := cmpf .olt main_v52 main_v53
  let main_c_21 : IVec S_ 1 := constantI S_ 1 1#1
  let main_v55 : IVec S_ 1 := (fun x v => Host.reduce IntOp.andi x v reducesTo_S64_S_d0 h_S_) main_v54 main_c_21
  let main_v56 : IVec S_ 1 := andi main_v51 main_v55
  main_v56

def fn_part2 {F : FTy → Type} [FloatOps F] (main_arg10 : FVec F S64x64 .f32) (main_arg11 : FVec F S_ .f32) (main_arg12 : FVec F S64x64 .f32) (main_arg13 : FVec F S64 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S64x64 .f32 := Host.absf main_arg10
  let main_cst_14 : FVec F S_ .f32 := constant S_ .f32 0x7F800000#32
  let main_v39 : FVec F S64x64 .f32 := broadcastInDim S64x64 ![] bcast_S_S64x64 main_cst_14
  let main_v40 : IVec S64x64 1 := cmpf .olt main_v38 main_v39
  let main_c_15 : IVec S_ 1 := constantI S_ 1 1#1
  let main_v41 : IVec S_ 1 := (fun x v => Host.reduce IntOp.andi x v reducesTo_S64x64_S_d0_1 h_S_) main_v40 main_c_15
  let main_v42 : IVec S_ 1 := andi main_v37 main_v41
  let main_v43 : FVec F S_ .f32 := Host.absf main_arg11
  let main_cst_16 : FVec F S_ .f32 := constant S_ .f32 0x7F800000#32
  let main_v44 : IVec S_ 1 := cmpf .olt main_v43 main_cst_16
  let main_c_17 : IVec S_ 1 := constantI S_ 1 1#1
  let main_v45 : IVec S_ 1 := (fun x v => Host.reduce IntOp.andi x v reducesTo_S_S_d h_S_) main_v44 main_c_17
  let main_v46 : IVec S_ 1 := andi main_v42 main_v45
  let main_v47 : FVec F S64x64 .f32 := Host.absf main_arg12
  let main_cst_18 : FVec F S_ .f32 := constant S_ .f32 0x7F800000#32
  let main_v48 : FVec F S64x64 .f32 := broadcastInDim S64x64 ![] bcast_S_S64x64 main_cst_18
  let main_v49 : IVec S64x64 1 := cmpf .olt main_v47 main_v48
  let main_c_19 : IVec S_ 1 := constantI S_ 1 1#1
  fn_part3 (F := F) main_arg13 main_v46 main_v49 main_c_19

def fn_part1 {F : FTy → Type} [FloatOps F] (main_arg6 : FVec F S64x64 .f32) (main_arg7 : FVec F S_ .f32) (main_arg8 : FVec F S64x64 .f32) (main_arg9 : FVec F S64 .f32) (main_arg10 : FVec F S64x64 .f32) (main_arg11 : FVec F S_ .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S64x64 .f32 := Host.absf main_arg8
  let main_cst_10 : FVec F S_ .f32 := constant S_ .f32 0x7F800000#32
  let main_v29 : FVec F S64x64 .f32 := broadcastInDim S64x64 ![] bcast_S_S64x64 main_cst_10
  let main_v30 : IVec S64x64 1 := cmpf .olt main_v28 main_v29
  let main_c_11 : IVec S_ 1 := constantI S_ 1 1#1
  let main_v31 : IVec S_ 1 := (fun x v => Host.reduce IntOp.andi x v reducesTo_S64x64_S_d0_1 h_S_) main_v30 main_c_11
  let main_v32 : IVec S_ 1 := andi main_v27 main_v31
  let main_v33 : FVec F S64 .f32 := Host.absf main_arg9
  fn_part2 (F := F) main_arg10 main_arg11 main_arg12 main_arg13 main_v32 main_v33

def fn {F : FTy → Type} [FloatOps F] (main_arg0 : IVec S100000 32) (main_arg1 : IVec S2x1250000 32) (main_arg2 : FVec F S1250000 .f32) (main_arg3 : FVec F S100000x64 .f32) (main_arg4 : FVec F S64x64 .f32) (main_arg5 : FVec F S64 .f32) (main_arg6 : FVec F S64x64 .f32) (main_arg7 : FVec F S_ .f32) (main_arg8 : FVec F S64x64 .f32) (main_arg9 : FVec F S64 .f32) (main_arg10 : FVec F S64x64 .f32) (main_arg11 : FVec F S_ .f32) (main_arg12 : FVec F S64x64 .f32) (main_arg13 : FVec F S64 .f32) : IVec S_ 1 :=
  let main_v0 : FVec F S1250000 .f32 := Host.absf main_arg2
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000 : Shape := ⟨1, ![100000]⟩
abbrev S2x1250000 : Shape := ⟨2, ![2, 1250000]⟩
abbrev S1250000 : Shape := ⟨1, ![1250000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S1x1250000 : Shape := ⟨2, ![1, 1250000]⟩
abbrev S100000x1 : Shape := ⟨2, ![100000, 1]⟩
abbrev S1250000x1 : Shape := ⟨2, ![1250000, 1]⟩
abbrev S1250000x64 : Shape := ⟨2, ![1250000, 64]⟩
abbrev S1x64 : Shape := ⟨2, ![1, 64]⟩
abbrev S1x1 : Shape := ⟨2, ![1, 1]⟩
abbrev S10000x64 : Shape := ⟨2, ![10000, 64]⟩
abbrev S10000x1 : Shape := ⟨2, ![10000, 1]⟩

abbrev nBuf : Space → Nat
  | .hbm => 73
  | .vmem => 26
  | .smem => 0
  | _ => 0

abbrev bufTy : (tb : Table) → Fin (tcTables nBuf tb) → BufTy
  | .hbm, ⟨0, _⟩ => ⟨S100000, .i32⟩
  | .hbm, ⟨1, _⟩ => ⟨S2x1250000, .i32⟩
  | .hbm, ⟨2, _⟩ => ⟨S1250000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64, .f32⟩
  | .hbm, ⟨14, _⟩ => ⟨S1x1250000, .i32⟩
  | .hbm, ⟨15, _⟩ => ⟨S1250000, .i32⟩
  | .hbm, ⟨16, _⟩ => ⟨S1x1250000, .i32⟩
  | .hbm, ⟨17, _⟩ => ⟨S1250000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S_, .f32⟩
  | .hbm, ⟨50, _⟩ => ⟨S100000x64, .f32⟩
  | .hbm, ⟨51, _⟩ => ⟨S1250000x1, .i32⟩
  | .hbm, ⟨52, _⟩ => ⟨S100000x64, .f32⟩
  | .hbm, ⟨53, _⟩ => ⟨S1x64, .f32⟩
  | .hbm, ⟨54, _⟩ => ⟨S1x1, .f32⟩
  | .hbm, ⟨55, _⟩ => ⟨S100000x64, .f32⟩
  | .hbm, ⟨56, _⟩ => ⟨S_, .i32⟩
  | .hbm, ⟨57, _⟩ => ⟨S1250000, .i32⟩
  | .hbm, ⟨58, _⟩ => ⟨S1250000, .i1⟩
  | .hbm, ⟨59, _⟩ => ⟨S_, .i32⟩
  | .hbm, ⟨60, _⟩ => ⟨S1250000, .i32⟩
  | .hbm, ⟨61, _⟩ => ⟨S1250000, .i32⟩
  | .hbm, ⟨62, _⟩ => ⟨S1250000, .i32⟩
  | .hbm, ⟨63, _⟩ => ⟨S1250000x1, .i32⟩
  | .hbm, ⟨64, _⟩ => ⟨S1250000x64, .f32⟩
  | .hbm, ⟨65, _⟩ => ⟨S_, .f32⟩
  | .hbm, ⟨66, _⟩ => ⟨S100000x64, .f32⟩
  | .hbm, ⟨67, _⟩ => ⟨S1250000x1, .i32⟩
  | .hbm, ⟨68, _⟩ => ⟨S100000x64, .f32⟩
  | .hbm, ⟨69, _⟩ => ⟨S1x64, .f32⟩
  | .hbm, ⟨70, _⟩ => ⟨S1x1, .f32⟩
  | .hbm, ⟨71, _⟩ => ⟨S1x64, .f32⟩
  | .hbm, ⟨72, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x1, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S100000_S100000x1_0 : S100000.BroadcastsInDim S100000x1 (![0] : Fin 1 → Fin S100000x1.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S64_S1x64 : S64.ShapeCasts S1x64
  shapeCasts_S_S1x1 : S_.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x64 : S1x1.Broadcasts S10000x64
  gather_S100000x64_S100000x1_S100000x64_1_0_n_n_0_1_164_wf : GatherDims.WF S100000x64 S100000x1 S100000x64 [1] [0] [] [0] [] 1 ![1, 64]
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg12) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v45) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v46) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000 : Shape := ⟨1, ![100000]⟩
abbrev S2x1250000 : Shape := ⟨2, ![2, 1250000]⟩
abbrev S1250000 : Shape := ⟨1, ![1250000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S1x1250000 : Shape := ⟨2, ![1, 1250000]⟩
abbrev S100000x1 : Shape := ⟨2, ![100000, 1]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 105
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1250000, .i32⟩
  | .hbm, ⟨2, _⟩ => ⟨S1250000, .f32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64, .f32⟩
  | .hbm, ⟨14, _⟩ => ⟨S1x1250000, .i32⟩
  | .hbm, ⟨15, _⟩ => ⟨S1250000, .i32⟩
  | .hbm, ⟨16, _⟩ => ⟨S1x1250000, .i32⟩
  | .hbm, ⟨17, _⟩ => ⟨S1250000, .i32⟩
  | .hbm, ⟨18, _⟩ => ⟨S_, .i32⟩
  | .hbm, ⟨19, _⟩ => ⟨S100000, .i32⟩
  | .hbm, ⟨20, _⟩ => ⟨S100000, .i1⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S100000, .i32⟩
  | .hbm, ⟨25, _⟩ => ⟨S100000x1, .i32⟩
  | .hbm, ⟨26, _⟩ => ⟨S100000x64, .f32⟩
  | .hbm, ⟨27, _⟩ => ⟨S_, .i32⟩
  | .hbm, ⟨28, _⟩ => ⟨S1250000, .i32⟩
  | .hbm, ⟨29, _⟩ => ⟨S1250000, .i1⟩
  | .hbm, ⟨30, _⟩ => ⟨S_, .i32⟩
  | .hbm, ⟨31, _⟩ => ⟨S1250000, .i32⟩
  | .hbm, ⟨32, _⟩ => ⟨S1250000, .i32⟩
  | .hbm, ⟨33, _⟩ => ⟨S1250000, .i32⟩
  | .hbm, ⟨34, _⟩ => ⟨S1250000x1, .i32⟩
  | .hbm, ⟨35, _⟩ => ⟨S1250000x64, .f32⟩
  | .hbm, ⟨36, _⟩ => ⟨S_, .f32⟩
  | .hbm, ⟨37, _⟩ => ⟨S100000x64, .f32⟩
  | .hbm, ⟨38, _⟩ => ⟨S1250000x1, .i32⟩
  | .hbm, ⟨39, _⟩ => ⟨S100000x64, .f32⟩
  | .hbm, ⟨40, _⟩ => ⟨S_, .f32⟩
  | .hbm, ⟨41, _⟩ => ⟨S1250000, .f32⟩
  | .hbm, ⟨42, _⟩ => ⟨S_, .f32⟩
  | .hbm, ⟨43, _⟩ => ⟨S100000, .f32⟩
  | .hbm, ⟨44, _⟩ => ⟨S1250000x1, .i32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .i1⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S_, .i32⟩
  | .hbm, ⟨65, _⟩ => ⟨S1250000, .i32⟩
  | .hbm, ⟨66, _⟩ => ⟨S1250000, .i1⟩
  | .hbm, ⟨67, _⟩ => ⟨S_, .i32⟩
  | .hbm, ⟨68, _⟩ => ⟨S1250000, .i32⟩
  | .hbm, ⟨69, _⟩ => ⟨S1250000, .i32⟩
  | .hbm, ⟨70, _⟩ => ⟨S1250000, .i32⟩
  | .hbm, ⟨71, _⟩ => ⟨S1250000x1, .i32⟩
  | .hbm, ⟨72, _⟩ => ⟨S1250000x64, .f32⟩
  | .hbm, ⟨73, _⟩ => ⟨S_, .f32⟩
  | .hbm, ⟨74, _⟩ => ⟨S100000x64, .f32⟩
  | .hbm, ⟨75, _⟩ => ⟨S1250000x1, .i32⟩
  | .hbm, ⟨76, _⟩ => ⟨S100000x64, .f32⟩
  | .hbm, ⟨77, _⟩ => ⟨S_, .f32⟩
  | .hbm, ⟨78, _⟩ => ⟨S1250000, .f32⟩
  | .hbm, ⟨79, _⟩ => ⟨S_, .f32⟩
  | .hbm, ⟨80, _⟩ => ⟨S100000, .f32⟩
  | .hbm, ⟨81, _⟩ => ⟨S1250000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .i1⟩
  | .hbm, ⟨98, _⟩ => ⟨S100000x64, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S100000 : S_.BroadcastsInDim S100000 (![] : Fin 0 → Fin S100000.rank)
  bcast_S100000_S100000x1_0 : S100000.BroadcastsInDim S100000x1 (![0] : Fin 1 → Fin S100000x1.rank)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S100000x1_S100000x64_1_0_n_n_0_1_164_wf : GatherDims.WF S100000x64 S100000x1 S100000x64 [1] [0] [] [0] [] 1 ![1, 64]
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with every buffer named.

  The program is four segments: host operations, the first layer's kernel, host operations, the second layer's
  kernel.  Every weakly fair execution terminates without a fault, and every buffer outside the kernels' scoped
  memory ends holding the last boundary's contents: the fold of the host operations and of the two kernels'
  write-backs from the launch memory.  In particular the result array is the second kernel's output array, and each
  argument array is as launched.
-/
import proofs.«165761_j30520037605447_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result array and at the arguments: the result is the second kernel's output array
    after its last write-back, and each argument is as launched. -/
theorem run_result : θ_run defs (onTc (τ := τ) (main (F := F))) ⟨m, fun _ => 0, ρ⟩ (fun r => ∀ c : Dev nD,
      r.2.mem ((c.tc : Thread nD τ).loc main_v46) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨(h c _ (mem_uc main_v46 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)
    (run_all m ρ)

end Cert.KernelIdeal.WholeRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.Sage.lean ====
/-
  Two GraphSAGE layers with PReLU and an output projection, on the extended reals, as formulas per node.

  A node i with neighbourhood mean  mean_i ∈ ℝ̄^64  and own features  h_i ∈ ℝ̄^64  gets, in output column k,
      lin_i(k)   = (Σ_j mean_i(j) · Wl(j,k)) + bl(k) + Σ_j h_i(j) · Wr(j,k),
      layer_i(k) = lin_i(k) if lin_i(k) ≥ 0, else a · lin_i(k)                                   (PReLU),
  and the projection of a feature row t ∈ ℝ̄^64 is  outp(q) = (Σ_k t(k) · Wo(k,q)) + bo(q).
  The whole-array forms read one row of each operand per node.

  The neighbourhood mean is the neighbour sum divided by the clamped in-degree c = max(cnt, 1).  Since c ≥ 1 is
  never zero, dividing by c and multiplying by the reciprocal 1 / c are the same operation on every extended
  real, infinities included: both are x · c⁻¹.
-/
import Idealize.ShloMosaic.PureOps.Ideal.Laws
import Idealize.ShloMosaic.Lib.ValueIdx

noncomputable section

namespace Cert.Sage

open Idealize.ShloMosaic Idealize.ShloMosaic.ValueIdx

/-- The f32 patterns of 0 and of 1, as the programs spell them. -/
abbrev z32 : EReal := Ideal.ofBits .f32 0x00000000#32
abbrev o32 : EReal := Ideal.ofBits .f32 0x3F800000#32

/-- The pattern 0x3F800000 denotes the real number 1. -/
theorem o32_eq : o32 = 1 := by
  simp [Ideal.ofBits, Ideal.ieee, -EReal.coe_mul]; norm_num

/-- Multiplying by the reciprocal of a clamped count is dividing by it: max(c, 1) ≥ 1 is not zero, so both sides
    are x · max(c, 1)⁻¹ — for every extended real x and c, no finiteness needed. -/
theorem mul_recip_eq_div (x c : EReal) : x * Ideal.div o32 (max c o32) = Ideal.div x (max c o32) := by
  rw [o32_eq]
  have h : max c (1 : EReal) ≠ 0 := (lt_of_lt_of_le zero_lt_one (le_max_right c 1)).ne'
  rw [Ideal.div, Ideal.div, if_neg h, if_neg h, one_mul]

/-- PReLU with slope a: x where x ≥ 0, a · x elsewhere. -/
def prelu (a x : EReal) : EReal :=
  Scalar.select (FloatOps.cmpf (F := Ideal) (φ := .f32) .oge x z32) x (a * x)

/-- A 64 × 64 weight matrix. -/
abbrev SW : Shape := ⟨2, ![64, 64]⟩

/-- The linear part of a layer at one node, output column k. -/
def lin (mean h : Fin 64 → EReal) (Wl Wr : SW.Idx → EReal) (bl : Fin 64 → EReal) (k : Fin 64) : EReal :=
  (∑ j : Fin 64, mean j * Wl (ix2 j k)) + bl k + ∑ j : Fin 64, h j * Wr (ix2 j k)

/-- One layer at one node: PReLU of the linear part. -/
def layer (mean h : Fin 64 → EReal) (Wl Wr : SW.Idx → EReal) (bl : Fin 64 → EReal) (a : EReal) (k : Fin 64) : EReal :=
  prelu a (lin mean h Wl Wr bl k)

/-- The output projection of one feature row. -/
def outp (t : Fin 64 → EReal) (Wo : SW.Idx → EReal) (bo : Fin 64 → EReal) (q : Fin 64) : EReal :=
  (∑ k : Fin 64, t k * Wo (ix2 k q)) + bo q

/-- Row and column of an index of an n × 64 array, as numbers of literal range. -/
def rowOf {n : ℕ} (i : (⟨2, ![n, 64]⟩ : Shape).Idx) : Fin n := ⟨(i 0).val, idx2_lt0 i⟩
def colOf {n : ℕ} (i : (⟨2, ![n, 64]⟩ : Shape).Idx) : Fin 64 := ⟨(i 1).val, idx2_lt1 i⟩

theorem rowOf_ix2 {n : ℕ} (p : Fin n) (q : Fin 64) : rowOf (ix2 p q) = p := rfl
theorem colOf_ix2 {n : ℕ} (p : Fin n) (q : Fin 64) : colOf (ix2 p q) = q := rfl

/-- All nodes' features: n × 64. -/
abbrev SN (n : ℕ) : Shape := ⟨2, ![n, 64]⟩

/-- A layer over all nodes: node i reads row i of the means and of the features. -/
def Hl {n : ℕ} (mean h : (SN n).Idx → EReal) (Wl Wr : SW.Idx → EReal) (bl : Fin 64 → EReal) (a : EReal) : (SN n).Idx → EReal :=
  fun i => layer (fun j => mean (ix2 (rowOf i) j)) (fun j => h (ix2 (rowOf i) j)) Wl Wr bl a (colOf i)

/-- A layer followed by the output projection, over all nodes. -/
def Ho {n : ℕ} (mean h : (SN n).Idx → EReal) (Wl Wr : SW.Idx → EReal) (bl : Fin 64 → EReal) (a : EReal)
    (Wo : SW.Idx → EReal) (bo : Fin 64 → EReal) : (SN n).Idx → EReal :=
  fun i => outp (fun k => layer (fun j => mean (ix2 (rowOf i) j)) (fun j => h (ix2 (rowOf i) j)) Wl Wr bl a k) Wo bo (colOf i)

/-- The layer over all nodes on the operands as a kernel holds them: the mean is the neighbour sum times a column
    of reciprocals, the bias a 1 × 64 row, the slope a 1 × 1 array. -/
def layerArr {n : ℕ} (agg : (SN n).Idx → EReal) (rc : (⟨2, ![n, 1]⟩ : Shape).Idx → EReal) (h : (SN n).Idx → EReal)
    (Wl : SW.Idx → EReal) (bl : (⟨2, ![1, 64]⟩ : Shape).Idx → EReal) (Wr : SW.Idx → EReal)
    (a : (⟨2, ![1, 1]⟩ : Shape).Idx → EReal) : (SN n).Idx → EReal :=
  Hl (fun i => agg i * rc (ix2 (rowOf i) (0 : Fin 1))) h Wl Wr (fun k => bl (ix2 (0 : Fin 1) k)) (a (ix2 (0 : Fin 1) (0 : Fin 1)))

/-- The layer followed by the projection, on the operands as a kernel holds them. -/
def outArr {n : ℕ} (agg : (SN n).Idx → EReal) (rc : (⟨2, ![n, 1]⟩ : Shape).Idx → EReal) (h : (SN n).Idx → EReal)
    (Wl : SW.Idx → EReal) (bl : (⟨2, ![1, 64]⟩ : Shape).Idx → EReal) (Wr : SW.Idx → EReal)
    (a : (⟨2, ![1, 1]⟩ : Shape).Idx → EReal) (Wo : SW.Idx → EReal) (bo : (⟨2, ![1, 64]⟩ : Shape).Idx → EReal) : (SN n).Idx → EReal :=
  Ho (fun i => agg i * rc (ix2 (rowOf i) (0 : Fin 1))) h Wl Wr (fun k => bl (ix2 (0 : Fin 1) k)) (a (ix2 (0 : Fin 1) (0 : Fin 1)))
    Wo (fun q => bo (ix2 (0 : Fin 1) q))

/-- Equal operands, equal layers. -/
theorem Hl_congr {n : ℕ} {mean mean' h h' : (SN n).Idx → EReal} {Wl Wl' Wr Wr' : SW.Idx → EReal} {bl bl' : Fin 64 → EReal}
    {a a' : EReal} (e1 : mean = mean') (e2 : h = h') (e3 : Wl = Wl') (e4 : Wr = Wr') (e5 : bl = bl') (e6 : a = a') :
    Hl mean h Wl Wr bl a = Hl mean' h' Wl' Wr' bl' a' := by rw [e1, e2, e3, e4, e5, e6]

theorem Ho_congr {n : ℕ} {mean mean' h h' : (SN n).Idx → EReal} {Wl Wl' Wr Wr' : SW.Idx → EReal} {bl bl' : Fin 64 → EReal}
    {a a' : EReal} {Wo Wo' : SW.Idx → EReal} {bo bo' : Fin 64 → EReal}
    (e1 : mean = mean') (e2 : h = h') (e3 : Wl = Wl') (e4 : Wr = Wr') (e5 : bl = bl') (e6 : a = a') (e7 : Wo = Wo') (e8 : bo = bo') :
    Ho mean h Wl Wr bl a Wo bo = Ho mean' h' Wl' Wr' bl' a' Wo' bo' := by rw [e1, e2, e3, e4, e5, e6, e7, e8]

/-- The layer array at a node and column: the layer formula on that node's rows. -/
theorem layerArr_apply {n : ℕ} (agg : (SN n).Idx → EReal) (rc : (⟨2, ![n, 1]⟩ : Shape).Idx → EReal) (h : (SN n).Idx → EReal)
    (Wl : SW.Idx → EReal) (bl : (⟨2, ![1, 64]⟩ : Shape).Idx → EReal) (Wr : SW.Idx → EReal)
    (a : (⟨2, ![1, 1]⟩ : Shape).Idx → EReal) (i : (SN n).Idx) :
    layerArr agg rc h Wl bl Wr a i
      = layer (fun j => agg (ix2 (rowOf i) j) * rc (ix2 (rowOf i) (0 : Fin 1))) (fun j => h (ix2 (rowOf i) j)) Wl Wr
          (fun k => bl (ix2 (0 : Fin 1) k)) (a (ix2 (0 : Fin 1) (0 : Fin 1))) (colOf i) := rfl

/-- The layer-and-projection array at a node and column. -/
theorem outArr_apply {n : ℕ} (agg : (SN n).Idx → EReal) (rc : (⟨2, ![n, 1]⟩ : Shape).Idx → EReal) (h : (SN n).Idx → EReal)
    (Wl : SW.Idx → EReal) (bl : (⟨2, ![1, 64]⟩ : Shape).Idx → EReal) (Wr : SW.Idx → EReal)
    (a : (⟨2, ![1, 1]⟩ : Shape).Idx → EReal) (Wo : SW.Idx → EReal) (bo : (⟨2, ![1, 64]⟩ : Shape).Idx → EReal) (i : (SN n).Idx) :
    outArr agg rc h Wl bl Wr a Wo bo i
      = outp (fun k => layer (fun j => agg (ix2 (rowOf i) j) * rc (ix2 (rowOf i) (0 : Fin 1))) (fun j => h (ix2 (rowOf i) j)) Wl Wr
          (fun k => bl (ix2 (0 : Fin 1) k)) (a (ix2 (0 : Fin 1) (0 : Fin 1))) k) Wo (fun q => bo (ix2 (0 : Fin 1) q)) (colOf i) := rfl

end Cert.Sage

end
-- ==== Proof.Payload.lean ====
/-
  The kernels' arithmetic, read at one entry.

  Each kernel body works on a tile of 10000 nodes.  From the tile of neighbour sums x, the column of reciprocal
  clamped degrees r, the tile of node features h, the weights and the bias row and the slope, the first body
  computes at (p, k)
      PReLU_a( (Σ_j (x(p,j) · r(p,0)) · Wl(j,k)) + bl(0,k) + Σ_j h(p,j) · Wr(j,k) ),
  the layer formula at node p with mean x(p,·) · r(p,0); the casts to bf16 before each product change nothing on
  the extended reals.  The second body computes the same and then projects the row: Σ_k layer(p,k) · Wo(k,q) + bo(0,q).
-/
import proofs.«165761_j30520037605447_1_alg».proof.Proof.Gen.KernelIdeal.Skeleton
import proofs.«165761_j30520037605447_1_alg».proof.Proof.LibPlainMatmul
import proofs.«165761_j30520037605447_1_alg».proof.Proof.LibKeepdims
import proofs.«165761_j30520037605447_1_alg».proof.Proof.Sage
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx Cert.Sage

/-- A 1 × 1 array broadcast to a × b reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ =>
    show (0 : ℕ) = if (1 : ℕ) = 1 then 0 else p.val
    rw [if_pos rfl]
  | ⟨1, _⟩ =>
    show (0 : ℕ) = if (1 : ℕ) = 1 then 0 else c.val
    rw [if_pos rfl]

section
variable (v0 : FVec Ideal S10000x64 .f32) (v2 : FVec Ideal S10000x1 .f32) (v7 : FVec Ideal S64x64 .f32)
  (v10 : FVec Ideal S1x64 .f32) (v14 : FVec Ideal S10000x64 .f32) (v17 : FVec Ideal S64x64 .f32) (v21 : FVec Ideal S1x1 .f32)

/-- The tile of linear parts: the two products and the bias row, added in the body's order. -/
def linTile : FVec Ideal S10000x64 .f32 :=
  addf
    (addf
      (matmul dot_S10000x64_S64x64_S10000x64_1_0_0_1_n_n none
        (truncf .bf16 (mulf (shapeCast S10000x64 v0 shapeCasts_S10000x64_S10000x64)
          (broadcastTo S10000x64 (shapeCast S10000x1 v2 shapeCasts_S10000x1_S10000x1) broadcasts_S10000x1_S10000x64)) bitsLt_bf16_f32)
        (truncf .bf16 v7 bitsLt_bf16_f32) (constant S10000x64 .f32 0x00000000#32))
      (broadcastTo S10000x64 (shapeCast S1x64 v10 shapeCasts_S1x64_S1x64) broadcasts_S1x64_S10000x64))
    (matmul dot_S10000x64_S64x64_S10000x64_1_0_0_1_n_n none
      (truncf .bf16 (shapeCast S10000x64 v14 shapeCasts_S10000x64_S10000x64) bitsLt_bf16_f32)
      (truncf .bf16 v17 bitsLt_bf16_f32) (constant S10000x64 .f32 0x00000000#32))

/-- The tile of activations: PReLU of the linear parts with the broadcast slope. -/
def actTile : FVec Ideal S10000x64 .f32 :=
  select (cmpf .oge (linTile v0 v2 v7 v10 v14 v17) (broadcast S10000x64 (Scalar.ofBits .f32 0x00000000#32)))
    (linTile v0 v2 v7 v10 v14 v17)
    (mulf (broadcastTo S10000x64 (shapeCast S1x1 v21 shapeCasts_S1x1_S1x1) broadcasts_S1x1_S10000x64) (linTile v0 v2 v7 v10 v14 v17))

/-- The first body's stored value is the tile of activations. -/
theorem k0_pay1_eq : k0_pay1 (F := Ideal) v0 v2 v7 v10 v14 v17 v21 = actTile v0 v2 v7 v10 v14 v17 v21 := rfl

/-- The second body's stored value is the tile of activations times the output weights, plus the output bias row. -/
theorem k1_pay1_eq (v29 : FVec Ideal S64x64 .f32) (v32 : FVec Ideal S1x64 .f32) :
    k1_pay1 (F := Ideal) v0 v2 v7 v10 v14 v17 v21 v29 v32
      = addf (matmul dot_S10000x64_S64x64_S10000x64_1_0_0_1_n_n none
          (truncf .bf16 (actTile v0 v2 v7 v10 v14 v17 v21) bitsLt_bf16_f32) (truncf .bf16 v29 bitsLt_bf16_f32)
          (constant S10000x64 .f32 0x00000000#32))
        (broadcastTo S10000x64 (shapeCast S1x64 v32 shapeCasts_S1x64_S1x64) broadcasts_S1x64_S10000x64) := rfl

/-- A product of a 10000 × 64 tile with a 64 × 64 matrix into the zero tile, at (p, q): the sum over the inner axis. -/
theorem tileMatmul_apply {φ₁ φ₂ : FTy} (l : FVec Ideal S10000x64 φ₁) (r : FVec Ideal S64x64 φ₂) (p : Fin 10000) (q : Fin 64) :
    matmul dot_S10000x64_S64x64_S10000x64_1_0_0_1_n_n none l r (constant S10000x64 .f32 0x00000000#32) (ix2 p q)
      = ∑ j : Fin 64, l (ix2 p j) * r (ix2 j q) :=
  Cert.PlainMatmul.matmul_zero_apply dot_S10000x64_S64x64_S10000x64_1_0_0_1_n_n.wf none l r p q

/-- The linear part at (p, k) is the layer's linear formula at node p of the tile. -/
theorem linTile_apply (p : Fin 10000) (k : Fin 64) :
    linTile v0 v2 v7 v10 v14 v17 (ix2 p k)
      = lin (fun j => v0 (ix2 p j) * v2 (ix2 p (0 : Fin 1))) (fun j => v14 (ix2 p j)) v7 v17 (fun k => v10 (ix2 (0 : Fin 1) k)) k := by
  unfold linTile lin
  rw [addf_apply, addf_apply, tileMatmul_apply, tileMatmul_apply]
  congr 1
  congr 1
  · refine Finset.sum_congr rfl fun j _ => ?_
    rw [truncf_apply, truncf_apply, mulf_apply, shapeCast_self, shapeCast_self, Cert.Keepdims.broadcastTo_a1_ab_apply]
  · rw [shapeCast_self]
    exact broadcastTo_1b_ab_apply _ _ p k
  · refine Finset.sum_congr rfl fun j _ => ?_
    rw [truncf_apply, truncf_apply, shapeCast_self]

/-- The activation at (p, k) is the layer formula at node p of the tile. -/
theorem actTile_apply (p : Fin 10000) (k : Fin 64) :
    actTile v0 v2 v7 v10 v14 v17 v21 (ix2 p k)
      = layer (fun j => v0 (ix2 p j) * v2 (ix2 p (0 : Fin 1))) (fun j => v14 (ix2 p j)) v7 v17 (fun k => v10 (ix2 (0 : Fin 1) k))
          (v21 (ix2 (0 : Fin 1) (0 : Fin 1))) k := by
  unfold actTile layer prelu
  rw [select_apply, cmpf_apply, mulf_apply, broadcast_apply, linTile_apply, shapeCast_self, broadcastTo_11_ab_apply]
  rfl

/-- The first body's stored value at (p, k). -/
theorem pay_layer (p : Fin 10000) (k : Fin 64) :
    k0_pay1 (F := Ideal) v0 v2 v7 v10 v14 v17 v21 (ix2 p k)
      = layer (fun j => v0 (ix2 p j) * v2 (ix2 p (0 : Fin 1))) (fun j => v14 (ix2 p j)) v7 v17 (fun k => v10 (ix2 (0 : Fin 1) k))
          (v21 (ix2 (0 : Fin 1) (0 : Fin 1))) k := by
  rw [k0_pay1_eq]; exact actTile_apply v0 v2 v7 v10 v14 v17 v21 p k

/-- The second body's stored value at (p, q): the projection of the activation row of node p. -/
theorem pay_out (v29 : FVec Ideal S64x64 .f32) (v32 : FVec Ideal S1x64 .f32) (p : Fin 10000) (q : Fin 64) :
    k1_pay1 (F := Ideal) v0 v2 v7 v10 v14 v17 v21 v29 v32 (ix2 p q)
      = outp (fun k => layer (fun j => v0 (ix2 p j) * v2 (ix2 p (0 : Fin 1))) (fun j => v14 (ix2 p j)) v7 v17
          (fun k => v10 (ix2 (0 : Fin 1) k)) (v21 (ix2 (0 : Fin 1) (0 : Fin 1))) k) v29 (fun q => v32 (ix2 (0 : Fin 1) q)) q := by
  rw [k1_pay1_eq]
  unfold outp
  rw [addf_apply, tileMatmul_apply]
  congr 1
  · refine Finset.sum_congr rfl fun k _ => ?_
    rw [truncf_apply, truncf_apply, actTile_apply]
  · rw [shapeCast_self]
    exact broadcastTo_1b_ab_apply _ _ p q

end

end Cert.KernelIdeal.Payload

end
-- ==== Proof.Region0.lean ====
/-
  The array the first kernel leaves.

  The grid has ten points; point t works on the tile of nodes 10000·t … 10000·t + 9999: it reads those rows of the
  neighbour sums, of the reciprocal-degree column and of the node features, the whole weight matrices, bias rows
  and slope, and writes those rows of the output.  What it writes is the layer formula evaluated on the
  tile, which is that tile of ONE whole-array function of the operand arrays as the kernel finds them; the ten tiles
  cover the 100000 rows, so after the last write-back the output array is that function.
-/
import proofs.«165761_j30520037605447_1_alg».proof.Proof.Gen.KernelIdeal.Frame
import proofs.«165761_j30520037605447_1_alg».proof.Proof.Payload
import Idealize.ShloMosaic.Lib.Pipeline.Value

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offZero : (![0, 0] : Fin 2 → Nat) = fun _ => 0 := funext fun a => by fin_cases a <;> rfl

/-- What the output array ends holding: the layer over all nodes, of the operand arrays as the kernel finds them. -/
abbrev G (c : Dev nD) : S100000x64.Idx → EReal :=
  layerArr (V c main_v29) (V c main_v19) (V c main_v10) (V c main_arg4) (V c main_v30) (V c main_arg6) (V c main_v31)

/-- The printed index maps, decided over the ten points: the three tiled operands move with the output tile along
    the rows; the weights, bias row and slope stay at block (0, 0). -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 9 :=
  (by decide +kernel : ∀ t : Fin grid0.N, _)

/-- Every row tile is some point's. -/
theorem idx_onto : ∀ b : Fin 10, ∃ t : Fin cfg0.N, win0_7.index t = ![b.val, 0] :=
  (by decide +kernel : ∀ b : Fin 10, ∃ t : Fin grid0.N, win0_7.index t = ![b.val, 0])

section reads
variable (c : Dev nD) (t : Fin cfg0.N)

/-- Row p of the tile of neighbour sums is the row of the array that output entry (p, q) of the tile lies in. -/
theorem read_agg (h0 : win0_0.index t (0 : Fin 2) = win0_7.index t (0 : Fin 2)) (h1 : win0_0.index t (1 : Fin 2) = 0)
    (p : Fin 10000) (j q : Fin 64) :
    iblk0 V c 0 t (ix2 p j) = V c main_v29 (ix2 (rowOf (((cfg0.win 7).blk t).view.emb (ix2 p q))) j) := by
  show V c main_v29 (((cfg0.win 0).blk t).view.emb (ix2 p j)) = _
  refine congrArg (V c main_v29) (funext fun a => Fin.ext ?_)
  match a with
  | ⟨0, _⟩ =>
    show win0_0.index t (0 : Fin 2) * 10000 + 1 * p.val = win0_7.index t (0 : Fin 2) * 10000 + 1 * p.val
    omega
  | ⟨1, _⟩ =>
    show win0_0.index t (1 : Fin 2) * 64 + 1 * j.val = j.val
    omega

/-- The same row of the reciprocal-degree column. -/
theorem read_rc (h0 : win0_1.index t (0 : Fin 2) = win0_7.index t (0 : Fin 2)) (h1 : win0_1.index t (1 : Fin 2) = 0)
    (p : Fin 10000) (q : Fin 64) :
    iblk0 V c 1 t (ix2 p (0 : Fin 1)) = V c main_v19 (ix2 (rowOf (((cfg0.win 7).blk t).view.emb (ix2 p q))) (0 : Fin 1)) := by
  show V c main_v19 (((cfg0.win 1).blk t).view.emb (ix2 p (0 : Fin 1))) = _
  refine congrArg (V c main_v19) (funext fun a => Fin.ext ?_)
  match a with
  | ⟨0, _⟩ =>
    show win0_1.index t (0 : Fin 2) * 10000 + 1 * p.val = win0_7.index t (0 : Fin 2) * 10000 + 1 * p.val
    omega
  | ⟨1, _⟩ =>
    show win0_1.index t (1 : Fin 2) * 1 + 1 * 0 = 0
    omega

/-- The same row of the node features. -/
theorem read_h (h0 : win0_2.index t (0 : Fin 2) = win0_7.index t (0 : Fin 2)) (h1 : win0_2.index t (1 : Fin 2) = 0)
    (p : Fin 10000) (j q : Fin 64) :
    iblk0 V c 2 t (ix2 p j) = V c main_v10 (ix2 (rowOf (((cfg0.win 7).blk t).view.emb (ix2 p q))) j) := by
  show V c main_v10 (((cfg0.win 2).blk t).view.emb (ix2 p j)) = _
  refine congrArg (V c main_v10) (funext fun a => Fin.ext ?_)
  match a with
  | ⟨0, _⟩ =>
    show win0_2.index t (0 : Fin 2) * 10000 + 1 * p.val = win0_7.index t (0 : Fin 2) * 10000 + 1 * p.val
    omega
  | ⟨1, _⟩ =>
    show win0_2.index t (1 : Fin 2) * 64 + 1 * j.val = j.val
    omega

/-- The weight matrices are read whole. -/
theorem read_Wl (h0 : win0_3.index t (0 : Fin 2) = 0) (h1 : win0_3.index t (1 : Fin 2) = 0) :
    iblk0 V c 3 t = V c main_arg4 := by
  funext y
  show V c main_arg4 (((cfg0.win 3).blk t).view.emb y) = V c main_arg4 y
  refine congrArg (V c main_arg4) (funext fun a => Fin.ext ?_)
  match a with
  | ⟨0, _⟩ =>
    show win0_3.index t (0 : Fin 2) * 64 + 1 * (y 0).val = (y 0).val
    omega
  | ⟨1, _⟩ =>
    show win0_3.index t (1 : Fin 2) * 64 + 1 * (y 1).val = (y 1).val
    omega

theorem read_Wr (h0 : win0_5.index t (0 : Fin 2) = 0) (h1 : win0_5.index t (1 : Fin 2) = 0) :
    iblk0 V c 5 t = V c main_arg6 := by
  funext y
  show V c main_arg6 (((cfg0.win 5).blk t).view.emb y) = V c main_arg6 y
  refine congrArg (V c main_arg6) (funext fun a => Fin.ext ?_)
  match a with
  | ⟨0, _⟩ =>
    show win0_5.index t (0 : Fin 2) * 64 + 1 * (y 0).val = (y 0).val
    omega
  | ⟨1, _⟩ =>
    show win0_5.index t (1 : Fin 2) * 64 + 1 * (y 1).val = (y 1).val
    omega

/-- The bias row and the slope are read whole. -/
theorem read_bl (h0 : win0_4.index t (0 : Fin 2) = 0) (h1 : win0_4.index t (1 : Fin 2) = 0) :
    iblk0 V c 4 t = V c main_v30 := by
  funext y
  show V c main_v30 (((cfg0.win 4).blk t).view.emb y) = V c main_v30 y
  refine congrArg (V c main_v30) (funext fun a => Fin.ext ?_)
  match a with
  | ⟨0, _⟩ =>
    show win0_4.index t (0 : Fin 2) * 1 + 1 * (y 0).val = (y 0).val
    omega
  | ⟨1, _⟩ =>
    show win0_4.index t (1 : Fin 2) * 64 + 1 * (y 1).val = (y 1).val
    omega

theorem read_a (h0 : win0_6.index t (0 : Fin 2) = 0) (h1 : win0_6.index t (1 : Fin 2) = 0) :
    iblk0 V c 6 t = V c main_v31 := by
  funext y
  show V c main_v31 (((cfg0.win 6).blk t).view.emb y) = V c main_v31 y
  refine congrArg (V c main_v31) (funext fun a => Fin.ext ?_)
  match a with
  | ⟨0, _⟩ =>
    show win0_6.index t (0 : Fin 2) * 1 + 1 * (y 0).val = (y 0).val
    omega
  | ⟨1, _⟩ =>
    show win0_6.index t (1 : Fin 2) * 1 + 1 * (y 1).val = (y 1).val
    omega

/-- The column of output entry (p, q) of the tile is q. -/
theorem col_out (o1 : win0_7.index t (1 : Fin 2) = 0) (p : Fin 10000) (q : Fin 64) :
    colOf (((cfg0.win 7).blk t).view.emb (ix2 p q)) = q := by
  apply Fin.ext
  show win0_7.index t (1 : Fin 2) * 64 + 1 * q.val = q.val
  omega

end reads

/-- WHAT POINT t WRITES BACK is tile t of the layer over all nodes. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero offZero]
  simp only [View.ld_unit_zero (S := S10000x64) offZero, View.ld_unit_zero (S := S10000x1) offZero,
    View.ld_unit_zero (S := S64x64) offZero, View.ld_unit_zero (S := S1x64) offZero, View.ld_unit_zero (S := S1x1) offZero]
  obtain ⟨a0, a1, b0, b1, c0, c1, d0, d1, e0, e1, f0, f1, g0, g1, o1, o0⟩ := idx_facts t
  funext j
  obtain ⟨p, q, rfl⟩ : ∃ (p : Fin 10000) (q : Fin 64), j = ix2 p q := ⟨j 0, j 1, eq_ix2 j⟩
  refine (Payload.pay_layer _ _ _ _ _ _ _ p q).trans ?_
  rw [read_Wl V c t d0 d1, read_Wr V c t f0 f1, read_bl V c t e0 e1, read_a V c t g0 g1]
  refine Eq.trans ?_ (layerArr_apply (V c main_v29) (V c main_v19) (V c main_v10) (V c main_arg4) (V c main_v30)
    (V c main_arg6) (V c main_v31) (((cfg0.win 7).blk t).view.emb (ix2 p q))).symm
  rw [col_out t o1 p q]
  congr 1
  · funext j
    rw [read_agg V c t a0 a1 p j q, read_rc V c t b0 b1 p q]
  · funext j
    rw [read_h V c t c0 c1 p j q]

/-- An index of the array is in point t's tile iff each coordinate is in the tile's range on its axis. -/
theorem mem_blk (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v32).slice (win0_7.rect t)).set ↔ _
  rw [View.set_slice_whole, Rect.mem_set_unit]
  exact Iff.rfl

/-- The ten tiles cover the array: row r is in tile r / 10000. -/
theorem cover (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  obtain ⟨t, ht⟩ := idx_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk]
  intro a
  match a with
  | ⟨0, _⟩ =>
    show win0_7.index t (0 : Fin 2) * 10000 ≤ (i 0).val ∧ (i 0).val < win0_7.index t (0 : Fin 2) * 10000 + 10000
    omega
  | ⟨1, _⟩ =>
    show win0_7.index t (1 : Fin 2) * 64 ≤ (i 1).val ∧ (i 1).val < win0_7.index t (1 : Fin 2) * 64 + 64
    omega

/-- THE ARRAY after the kernel's last write-back: the layer over all nodes. -/
theorem final (c : Dev nD) : (dat0 V c).arrAt 7 cfg0.N = G V c :=
  (dat0 V c).arrAt_eq_of_cover 7 (G V c) (fun t _ => flushed_eq V c t) (cover)

end Cert.KernelIdeal.Region0

end
-- ==== Proof.Region1.lean ====
/-
  The array the second kernel leaves.

  The grid has ten points; point t works on the tile of nodes 10000·t … 10000·t + 9999: it reads those rows of the
  neighbour sums, of the reciprocal-degree column and of the node features, the whole weight matrices, bias rows
  and slope, and writes those rows of the output.  What it writes is the layer formula followed by the projection, evaluated on the
  tile, which is that tile of ONE whole-array function of the operand arrays as the kernel finds them; the ten tiles
  cover the 100000 rows, so after the last write-back the output array is that function.
-/
import proofs.«165761_j30520037605447_1_alg».proof.Proof.Gen.KernelIdeal.Frame
import proofs.«165761_j30520037605447_1_alg».proof.Proof.Payload
import Idealize.ShloMosaic.Lib.Pipeline.Value

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem offZero : (![0, 0] : Fin 2 → Nat) = fun _ => 0 := funext fun a => by fin_cases a <;> rfl

/-- What the output array ends holding: the layer and projection over all nodes, of the operand arrays as the kernel finds them. -/
abbrev G (c : Dev nD) : S100000x64.Idx → EReal :=
  outArr (V c main_v42) (V c main_v19) (V c main_v32) (V c main_arg8) (V c main_v43) (V c main_arg10) (V c main_v44)
    (V c main_arg12) (V c main_v45)

/-- The printed index maps, decided over the ten points: the three tiled operands move with the output tile along
    the rows; the weights, bias rows and slope stay at block (0, 0). -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_2.index t (0 : Fin 2) = win1_9.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (1 : Fin 2) = 0 ∧ win1_9.index t (0 : Fin 2) ≤ 9 :=
  (by decide +kernel : ∀ t : Fin grid1.N, _)

/-- Every row tile is some point's. -/
theorem idx_onto : ∀ b : Fin 10, ∃ t : Fin cfg1.N, win1_9.index t = ![b.val, 0] :=
  (by decide +kernel : ∀ b : Fin 10, ∃ t : Fin grid1.N, win1_9.index t = ![b.val, 0])

section reads
variable (c : Dev nD) (t : Fin cfg1.N)

/-- Row p of the tile of neighbour sums is the row of the array that output entry (p, q) of the tile lies in. -/
theorem read_agg (h0 : win1_0.index t (0 : Fin 2) = win1_9.index t (0 : Fin 2)) (h1 : win1_0.index t (1 : Fin 2) = 0)
    (p : Fin 10000) (j q : Fin 64) :
    iblk1 V c 0 t (ix2 p j) = V c main_v42 (ix2 (rowOf (((cfg1.win 9).blk t).view.emb (ix2 p q))) j) := by
  show V c main_v42 (((cfg1.win 0).blk t).view.emb (ix2 p j)) = _
  refine congrArg (V c main_v42) (funext fun a => Fin.ext ?_)
  match a with
  | ⟨0, _⟩ =>
    show win1_0.index t (0 : Fin 2) * 10000 + 1 * p.val = win1_9.index t (0 : Fin 2) * 10000 + 1 * p.val
    omega
  | ⟨1, _⟩ =>
    show win1_0.index t (1 : Fin 2) * 64 + 1 * j.val = j.val
    omega

/-- The same row of the reciprocal-degree column. -/
theorem read_rc (h0 : win1_1.index t (0 : Fin 2) = win1_9.index t (0 : Fin 2)) (h1 : win1_1.index t (1 : Fin 2) = 0)
    (p : Fin 10000) (q : Fin 64) :
    iblk1 V c 1 t (ix2 p (0 : Fin 1)) = V c main_v19 (ix2 (rowOf (((cfg1.win 9).blk t).view.emb (ix2 p q))) (0 : Fin 1)) := by
  show V c main_v19 (((cfg1.win 1).blk t).view.emb (ix2 p (0 : Fin 1))) = _
  refine congrArg (V c main_v19) (funext fun a => Fin.ext ?_)
  match a with
  | ⟨0, _⟩ =>
    show win1_1.index t (0 : Fin 2) * 10000 + 1 * p.val = win1_9.index t (0 : Fin 2) * 10000 + 1 * p.val
    omega
  | ⟨1, _⟩ =>
    show win1_1.index t (1 : Fin 2) * 1 + 1 * 0 = 0
    omega

/-- The same row of the node features. -/
theorem read_h (h0 : win1_2.index t (0 : Fin 2) = win1_9.index t (0 : Fin 2)) (h1 : win1_2.index t (1 : Fin 2) = 0)
    (p : Fin 10000) (j q : Fin 64) :
    iblk1 V c 2 t (ix2 p j) = V c main_v32 (ix2 (rowOf (((cfg1.win 9).blk t).view.emb (ix2 p q))) j) := by
  show V c main_v32 (((cfg1.win 2).blk t).view.emb (ix2 p j)) = _
  refine congrArg (V c main_v32) (funext fun a => Fin.ext ?_)
  match a with
  | ⟨0, _⟩ =>
    show win1_2.index t (0 : Fin 2) * 10000 + 1 * p.val = win1_9.index t (0 : Fin 2) * 10000 + 1 * p.val
    omega
  | ⟨1, _⟩ =>
    show win1_2.index t (1 : Fin 2) * 64 + 1 * j.val = j.val
    omega

/-- Operand main_arg8 is read whole. -/
theorem read_Wl (h0 : win1_3.index t (0 : Fin 2) = 0) (h1 : win1_3.index t (1 : Fin 2) = 0) :
    iblk1 V c 3 t = V c main_arg8 := by
  funext y
  show V c main_arg8 (((cfg1.win 3).blk t).view.emb y) = V c main_arg8 y
  refine congrArg (V c main_arg8) (funext fun a => Fin.ext ?_)
  match a with
  | ⟨0, _⟩ =>
    show win1_3.index t (0 : Fin 2) * 64 + 1 * (y 0).val = (y 0).val
    omega
  | ⟨1, _⟩ =>
    show win1_3.index t (1 : Fin 2) * 64 + 1 * (y 1).val = (y 1).val
    omega

/-- Operand main_arg10 is read whole. -/
theorem read_Wr (h0 : win1_5.index t (0 : Fin 2) = 0) (h1 : win1_5.index t (1 : Fin 2) = 0) :
    iblk1 V c 5 t = V c main_arg10 := by
  funext y
  show V c main_arg10 (((cfg1.win 5).blk t).view.emb y) = V c main_arg10 y
  refine congrArg (V c main_arg10) (funext fun a => Fin.ext ?_)
  match a with
  | ⟨0, _⟩ =>
    show win1_5.index t (0 : Fin 2) * 64 + 1 * (y 0).val = (y 0).val
    omega
  | ⟨1, _⟩ =>
    show win1_5.index t (1 : Fin 2) * 64 + 1 * (y 1).val = (y 1).val
    omega

/-- Operand main_arg12 is read whole. -/
theorem read_Wo (h0 : win1_7.index t (0 : Fin 2) = 0) (h1 : win1_7.index t (1 : Fin 2) = 0) :
    iblk1 V c 7 t = V c main_arg12 := by
  funext y
  show V c main_arg12 (((cfg1.win 7).blk t).view.emb y) = V c main_arg12 y
  refine congrArg (V c main_arg12) (funext fun a => Fin.ext ?_)
  match a with
  | ⟨0, _⟩ =>
    show win1_7.index t (0 : Fin 2) * 64 + 1 * (y 0).val = (y 0).val
    omega
  | ⟨1, _⟩ =>
    show win1_7.index t (1 : Fin 2) * 64 + 1 * (y 1).val = (y 1).val
    omega

/-- Operand main_v43 is read whole. -/
theorem read_bl (h0 : win1_4.index t (0 : Fin 2) = 0) (h1 : win1_4.index t (1 : Fin 2) = 0) :
    iblk1 V c 4 t = V c main_v43 := by
  funext y
  show V c main_v43 (((cfg1.win 4).blk t).view.emb y) = V c main_v43 y
  refine congrArg (V c main_v43) (funext fun a => Fin.ext ?_)
  match a with
  | ⟨0, _⟩ =>
    show win1_4.index t (0 : Fin 2) * 1 + 1 * (y 0).val = (y 0).val
    omega
  | ⟨1, _⟩ =>
    show win1_4.index t (1 : Fin 2) * 64 + 1 * (y 1).val = (y 1).val
    omega

/-- Operand main_v45 is read whole. -/
theorem read_bo (h0 : win1_8.index t (0 : Fin 2) = 0) (h1 : win1_8.index t (1 : Fin 2) = 0) :
    iblk1 V c 8 t = V c main_v45 := by
  funext y
  show V c main_v45 (((cfg1.win 8).blk t).view.emb y) = V c main_v45 y
  refine congrArg (V c main_v45) (funext fun a => Fin.ext ?_)
  match a with
  | ⟨0, _⟩ =>
    show win1_8.index t (0 : Fin 2) * 1 + 1 * (y 0).val = (y 0).val
    omega
  | ⟨1, _⟩ =>
    show win1_8.index t (1 : Fin 2) * 64 + 1 * (y 1).val = (y 1).val
    omega

/-- Operand main_v44 is read whole. -/
theorem read_a (h0 : win1_6.index t (0 : Fin 2) = 0) (h1 : win1_6.index t (1 : Fin 2) = 0) :
    iblk1 V c 6 t = V c main_v44 := by
  funext y
  show V c main_v44 (((cfg1.win 6).blk t).view.emb y) = V c main_v44 y
  refine congrArg (V c main_v44) (funext fun a => Fin.ext ?_)
  match a with
  | ⟨0, _⟩ =>
    show win1_6.index t (0 : Fin 2) * 1 + 1 * (y 0).val = (y 0).val
    omega
  | ⟨1, _⟩ =>
    show win1_6.index t (1 : Fin 2) * 1 + 1 * (y 1).val = (y 1).val
    omega

/-- The column of output entry (p, q) of the tile is q. -/
theorem col_out (o1 : win1_9.index t (1 : Fin 2) = 0) (p : Fin 10000) (q : Fin 64) :
    colOf (((cfg1.win 9).blk t).view.emb (ix2 p q)) = q := by
  apply Fin.ext
  show win1_9.index t (1 : Fin 2) * 64 + 1 * q.val = q.val
  omega

end reads

set_option maxHeartbeats 4000000 in
/-- WHAT POINT t WRITES BACK is tile t of the layer and projection over all nodes. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero offZero]
  simp only [View.ld_unit_zero (S := S10000x64) offZero, View.ld_unit_zero (S := S10000x1) offZero,
    View.ld_unit_zero (S := S64x64) offZero, View.ld_unit_zero (S := S1x64) offZero, View.ld_unit_zero (S := S1x1) offZero]
  obtain ⟨a0, a1, b0, b1, c0, c1, d0, d1, e0, e1, f0, f1, g0, g1, w0, w1, u0, u1, o1, o0⟩ := idx_facts t
  funext j
  obtain ⟨p, q, rfl⟩ : ∃ (p : Fin 10000) (q : Fin 64), j = ix2 p q := ⟨j 0, j 1, eq_ix2 j⟩
  refine (Payload.pay_out _ _ _ _ _ _ _ _ _ p q).trans ?_
  rw [read_Wl V c t d0 d1, read_Wr V c t f0 f1, read_bl V c t e0 e1, read_a V c t g0 g1, read_Wo V c t w0 w1, read_bo V c t u0 u1]
  refine Eq.trans ?_ (outArr_apply (V c main_v42) (V c main_v19) (V c main_v32) (V c main_arg8) (V c main_v43)
    (V c main_arg10) (V c main_v44) (V c main_arg12) (V c main_v45) (((cfg1.win 9).blk t).view.emb (ix2 p q))).symm
  rw [col_out t o1 p q]
  congr 1
  funext k
  congr 1
  · funext j
    rw [read_agg V c t a0 a1 p j q, read_rc V c t b0 b1 p q]
  · funext j
    rw [read_h V c t c0 c1 p j q]

/-- An index of the array is in point t's tile iff each coordinate is in the tile's range on its axis. -/
theorem mem_blk (t : Fin cfg1.N) (i : S100000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v46).slice (win1_9.rect t)).set ↔ _
  rw [View.set_slice_whole, Rect.mem_set_unit]
  exact Iff.rfl

/-- The ten tiles cover the array: row r is in tile r / 10000. -/
theorem cover (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ := idx_onto ⟨(i 0).val / 10000, by omega⟩
  have q0 : win1_9.index t (0 : Fin 2) = (i 0).val / 10000 := congrFun ht 0
  have q1 : win1_9.index t (1 : Fin 2) = 0 := congrFun ht 1
  refine ⟨t, flush1_9 t, ?_⟩
  rw [mem_blk]
  intro a
  match a with
  | ⟨0, _⟩ =>
    show win1_9.index t (0 : Fin 2) * 10000 ≤ (i 0).val ∧ (i 0).val < win1_9.index t (0 : Fin 2) * 10000 + 10000
    omega
  | ⟨1, _⟩ =>
    show win1_9.index t (1 : Fin 2) * 64 ≤ (i 1).val ∧ (i 1).val < win1_9.index t (1 : Fin 2) * 64 + 64
    omega

/-- THE ARRAY after the kernel's last write-back: the layer and projection over all nodes. -/
theorem final (c : Dev nD) : (dat1 V c).arrAt 9 cfg1.N = G V c :=
  (dat1 V c).arrAt_eq_of_cover 9 (G V c) (fun t _ => flushed_eq V c t) (cover)

end Cert.KernelIdeal.Region1

end
-- ==== Proof.RefValue.lean ====
/-
  The reference, stage by stage, as the per-node formulas.

  The reference computes the first layer's activations as
      PReLU_a1( (agg1 / max(cnt, 1)) · Wl1 + bl1 + h0 · Wr1 ),
  over all 100000 nodes at once, the second layer's likewise from the first's, and the result as the second layer's
  activations times Wout plus bout.  Read at a node and a column, each is the layer formula of that node's rows with
  the mean "neighbour sum divided by the clamped degree"; the gathers and scatter-adds that produce the neighbour sums
  and the degree are not opened: they are the same functions of the same arrays on both sides.
-/
import proofs.«165761_j30520037605447_1_alg».proof.Proof.Gen.ReferenceIdeal.Read
import proofs.«165761_j30520037605447_1_alg».proof.Proof.Sage

noncomputable section

namespace Cert.ReferenceIdeal.RefValue

open Cert.ReferenceIdeal Cert.ReferenceIdeal.Read Idealize.ShloMosaic Idealize.ShloMosaic.ValueIdx Cert.Sage

/-- The neighbourhood mean: the neighbour sum divided by the node's clamped degree. -/
def meanOf (agg : S100000x64.Idx → EReal) (cl : S100000.Idx → EReal) : S100000x64.Idx → EReal :=
  fun i => Ideal.div (agg i) (cl (ix1 (rowOf i)))

/-! ## Index maps of the layout operations and products, at coordinates -/

theorem l30 (r : Fin 100000) (k j : Fin 64) : lidx_main_v30 (ix2 r k) j = ix2 r j :=
  funext fun a => Fin.ext (by match a with | ⟨0, _⟩ => rfl | ⟨1, _⟩ => rfl)
theorem r30 (r : Fin 100000) (k j : Fin 64) : ridx_main_v30 (ix2 r k) j = ix2 j k :=
  funext fun a => Fin.ext (by match a with | ⟨0, _⟩ => rfl | ⟨1, _⟩ => rfl)
theorem l34 (r : Fin 100000) (k j : Fin 64) : lidx_main_v34 (ix2 r k) j = ix2 r j :=
  funext fun a => Fin.ext (by match a with | ⟨0, _⟩ => rfl | ⟨1, _⟩ => rfl)
theorem r34 (r : Fin 100000) (k j : Fin 64) : ridx_main_v34 (ix2 r k) j = ix2 j k :=
  funext fun a => Fin.ext (by match a with | ⟨0, _⟩ => rfl | ⟨1, _⟩ => rfl)
theorem l60 (r : Fin 100000) (k j : Fin 64) : lidx_main_v60 (ix2 r k) j = ix2 r j :=
  funext fun a => Fin.ext (by match a with | ⟨0, _⟩ => rfl | ⟨1, _⟩ => rfl)
theorem r60 (r : Fin 100000) (k j : Fin 64) : ridx_main_v60 (ix2 r k) j = ix2 j k :=
  funext fun a => Fin.ext (by match a with | ⟨0, _⟩ => rfl | ⟨1, _⟩ => rfl)
theorem l64 (r : Fin 100000) (k j : Fin 64) : lidx_main_v64 (ix2 r k) j = ix2 r j :=
  funext fun a => Fin.ext (by match a with | ⟨0, _⟩ => rfl | ⟨1, _⟩ => rfl)
theorem r64 (r : Fin 100000) (k j : Fin 64) : ridx_main_v64 (ix2 r k) j = ix2 j k :=
  funext fun a => Fin.ext (by match a with | ⟨0, _⟩ => rfl | ⟨1, _⟩ => rfl)
theorem l71 (r : Fin 100000) (k j : Fin 64) : lidx_main_v71 (ix2 r k) j = ix2 r j :=
  funext fun a => Fin.ext (by match a with | ⟨0, _⟩ => rfl | ⟨1, _⟩ => rfl)
theorem r71 (r : Fin 100000) (k j : Fin 64) : ridx_main_v71 (ix2 r k) j = ix2 j k :=
  funext fun a => Fin.ext (by match a with | ⟨0, _⟩ => rfl | ⟨1, _⟩ => rfl)

/-- A bias vector broadcast to a row and then down the rows reads its entry of the column. -/
theorem b31 (r : Fin 100000) (k : Fin 64) : idx_main_v31 (idx_main_v32 (ix2 r k)) = ix1 k :=
  funext fun a => Fin.ext (by match a with | ⟨0, _⟩ => rfl)
theorem b61 (r : Fin 100000) (k : Fin 64) : idx_main_v61 (idx_main_v62 (ix2 r k)) = ix1 k :=
  funext fun a => Fin.ext (by match a with | ⟨0, _⟩ => rfl)
theorem b72 (r : Fin 100000) (k : Fin 64) : idx_main_v72 (idx_main_v73 (ix2 r k)) = ix1 k :=
  funext fun a => Fin.ext (by match a with | ⟨0, _⟩ => rfl)
/-- The clamped degree broadcast to a column and then along the rows reads the node's entry. -/
theorem c27 (r : Fin 100000) (j : Fin 64) : idx_main_v27 (idx_main_v28 (ix2 r j)) = ix1 r :=
  funext fun a => Fin.ext (by match a with | ⟨0, _⟩ => rfl)
theorem c57 (r : Fin 100000) (j : Fin 64) : idx_main_v57 (idx_main_v58 (ix2 r j)) = ix1 r :=
  funext fun a => Fin.ext (by match a with | ⟨0, _⟩ => rfl)
/-- A scalar broadcast everywhere reads the scalar. -/
theorem s38 (i : S100000x64.Idx) : idx_main_v38 i = ix0 := rfl
theorem s68 (i : S100000x64.Idx) : idx_main_v68 i = ix0 := rfl

section
variable (x0 : (⟨S100000, .i32⟩ : BufTy).Contents (Elt Ideal)) (x1 : (⟨S2x1250000, .i32⟩ : BufTy).Contents (Elt Ideal))
  (x3 : (⟨S100000x64, .f32⟩ : BufTy).Contents (Elt Ideal))
  (x4 x6 x8 x10 x12 : (⟨S64x64, .f32⟩ : BufTy).Contents (Elt Ideal))
  (x5 x9 x13 : (⟨S64, .f32⟩ : BufTy).Contents (Elt Ideal))
  (x7 x11 : (⟨S_, .f32⟩ : BufTy).Contents (Elt Ideal))

/-- The first layer's activations are the layer over all nodes, with the mean taken by division. -/
theorem h1_eq : val_main_v40 (F := Ideal) x0 x1 x3 x4 x5 x6 x7
    = Hl (meanOf (val_main_v20 (F := Ideal) x0 x1 x3) (val_main_v26 (F := Ideal) x1)) (val_main_v10 (F := Ideal) x0 x3)
        x4 x6 (fun k => x5 (ix1 k)) (x7 ix0) := by
  funext i
  obtain ⟨r, k, rfl⟩ : ∃ (r : Fin 100000) (k : Fin 64), i = ix2 r k := ⟨i 0, i 1, eq_ix2 i⟩
  have hs1 : val_main_v30 (F := Ideal) x0 x1 x3 x4 (ix2 r k)
      = ∑ j : Fin 64, meanOf (val_main_v20 (F := Ideal) x0 x1 x3) (val_main_v26 (F := Ideal) x1) (ix2 r j) * x4 (ix2 j k) := by
    rw [val_main_v30_apply]
    refine Finset.sum_congr rfl fun j _ => ?_
    rw [l30, r30, val_main_v29_apply, val_main_v28_apply, val_main_v27_apply, c27]
    rfl
  have hs2 : val_main_v34 (F := Ideal) x0 x3 x6 (ix2 r k)
      = ∑ j : Fin 64, (val_main_v10 (F := Ideal) x0 x3) (ix2 r j) * x6 (ix2 j k) := by
    rw [val_main_v34_apply]
    refine Finset.sum_congr rfl fun j _ => ?_
    rw [l34, r34]
  have hb : val_main_v32 (F := Ideal) x5 (ix2 r k) = x5 (ix1 k) := by
    rw [val_main_v32_apply, val_main_v31_apply, b31]
  have ha : val_main_v38 (F := Ideal) x7 (ix2 r k) = x7 ix0 := by
    rw [val_main_v38_apply, s38]
  have hz : val_main_v36 (F := Ideal) (ix2 r k) = z32 := by
    rw [val_main_v36_apply, val_main_cst_6_apply]; rfl
  rw [val_main_v40_apply, val_main_v37_apply, val_main_v39_apply, val_main_v35_apply, val_main_v33_apply, hs1, hs2, hb, ha, hz]
  unfold Hl layer prelu lin
  rfl

/-- The second layer's activations: the same layer, of the first layer's activations. -/
theorem h2_eq : val_main_v70 (F := Ideal) x0 x1 x3 x4 x5 x6 x7 x8 x9 x10 x11
    = Hl (meanOf (val_main_v50 (F := Ideal) x0 x1 x3 x4 x5 x6 x7) (val_main_v56 (F := Ideal) x1)) (val_main_v40 (F := Ideal) x0 x1 x3 x4 x5 x6 x7)
        x8 x10 (fun k => x9 (ix1 k)) (x11 ix0) := by
  funext i
  obtain ⟨r, k, rfl⟩ : ∃ (r : Fin 100000) (k : Fin 64), i = ix2 r k := ⟨i 0, i 1, eq_ix2 i⟩
  have hs1 : val_main_v60 (F := Ideal) x0 x1 x3 x4 x5 x6 x7 x8 (ix2 r k)
      = ∑ j : Fin 64, meanOf (val_main_v50 (F := Ideal) x0 x1 x3 x4 x5 x6 x7) (val_main_v56 (F := Ideal) x1) (ix2 r j) * x8 (ix2 j k) := by
    rw [val_main_v60_apply]
    refine Finset.sum_congr rfl fun j _ => ?_
    rw [l60, r60, val_main_v59_apply, val_main_v58_apply, val_main_v57_apply, c57]
    rfl
  have hs2 : val_main_v64 (F := Ideal) x0 x1 x3 x4 x5 x6 x7 x10 (ix2 r k)
      = ∑ j : Fin 64, (val_main_v40 (F := Ideal) x0 x1 x3 x4 x5 x6 x7) (ix2 r j) * x10 (ix2 j k) := by
    rw [val_main_v64_apply]
    refine Finset.sum_congr rfl fun j _ => ?_
    rw [l64, r64]
  have hb : val_main_v62 (F := Ideal) x9 (ix2 r k) = x9 (ix1 k) := by
    rw [val_main_v62_apply, val_main_v61_apply, b61]
  have ha : val_main_v68 (F := Ideal) x11 (ix2 r k) = x11 ix0 := by
    rw [val_main_v68_apply, s68]
  have hz : val_main_v66 (F := Ideal) (ix2 r k) = z32 := by
    rw [val_main_v66_apply, val_main_cst_13_apply]; rfl
  rw [val_main_v70_apply, val_main_v67_apply, val_main_v69_apply, val_main_v65_apply, val_main_v63_apply, hs1, hs2, hb, ha, hz]
  unfold Hl layer prelu lin
  rfl

/-- The result: the second layer followed by the output projection, over all nodes. -/
theorem out_eq : val_main_v74 (F := Ideal) x0 x1 x3 x4 x5 x6 x7 x8 x9 x10 x11 x12 x13
    = Ho (meanOf (val_main_v50 (F := Ideal) x0 x1 x3 x4 x5 x6 x7) (val_main_v56 (F := Ideal) x1))
        (val_main_v40 (F := Ideal) x0 x1 x3 x4 x5 x6 x7) x8 x10 (fun k => x9 (ix1 k)) (x11 ix0) x12 (fun q => x13 (ix1 q)) := by
  funext i
  obtain ⟨r, q, rfl⟩ : ∃ (r : Fin 100000) (q : Fin 64), i = ix2 r q := ⟨i 0, i 1, eq_ix2 i⟩
  have hs : val_main_v71 (F := Ideal) x0 x1 x3 x4 x5 x6 x7 x8 x9 x10 x11 x12 (ix2 r q)
      = ∑ k : Fin 64, Hl (meanOf (val_main_v50 (F := Ideal) x0 x1 x3 x4 x5 x6 x7) (val_main_v56 (F := Ideal) x1))
          (val_main_v40 (F := Ideal) x0 x1 x3 x4 x5 x6 x7) x8 x10 (fun k => x9 (ix1 k)) (x11 ix0) (ix2 r k) * x12 (ix2 k q) := by
    rw [val_main_v71_apply]
    refine Finset.sum_congr rfl fun k _ => ?_
    rw [l71, r71, h2_eq]
  have hb : val_main_v73 (F := Ideal) x13 (ix2 r q) = x13 (ix1 q) := by
    rw [val_main_v73_apply, val_main_v72_apply, b72]
  rw [val_main_v74_apply, hs, hb]
  unfold Ho Hl outp
  rfl

/-- The clamped degree is one stage, whichever layer names it. -/
theorem cl_eq : val_main_v56 (F := Ideal) x1 = val_main_v26 (F := Ideal) x1 := rfl

/-- The clamped degree at a node is max(cnt, 1). -/
theorem cl_apply (j : S100000.Idx) : val_main_v26 (F := Ideal) x1 j = max (val_main_v24 (F := Ideal) x1 j) o32 := by
  rw [val_main_v26_apply, val_main_v25_apply, val_main_cst_5_apply]; rfl

/-- A neighbour sum times the reciprocal of the node's clamped degree is the mean by division. -/
theorem mean_law (agg : S100000x64.Idx → EReal) (i : S100000x64.Idx) :
    agg i * Ideal.div o32 (val_main_v26 (F := Ideal) x1 (ix1 (rowOf i))) = meanOf agg (val_main_v26 (F := Ideal) x1) i := by
  unfold meanOf
  rw [cl_apply]
  exact mul_recip_eq_div _ _

end

end Cert.ReferenceIdeal.RefValue

end
-- ==== Proof.LibRecipColumn.lean ====
/-
  The column of reciprocals of a vector, as a host forms it, read at a row.

  A host computes  1 / d  for a vector d of length n as the quotient of the all-ones vector (the scalar pattern of 1
  broadcast to length n) by d, and turns the result into the column [n, 1].  On the extended reals the column's
  entry in row r is  div 1 (d r),  whatever d holds.  Nothing here mentions a program: d is a variable.
-/
import Idealize.ShloMosaic.PureOps.Ideal.Laws
import Idealize.ShloMosaic.Lib.ValueIdx
import Idealize.ShloMosaic.Lib.Pipeline.Value

noncomputable section

namespace Cert.RecipColumn

open Idealize.ShloMosaic Idealize.ShloMosaic.ValueIdx

/-- The all-ones vector: the scalar pattern of 1 broadcast to length n reads that pattern's value everywhere. -/
theorem ones_apply {n : ℕ} (h2 : (⟨0, ![]⟩ : Shape).BroadcastsInDim ⟨1, ![n]⟩ (![] : Fin 0 → Fin 1)) (r : Fin n) :
    broadcastInDim (⟨1, ![n]⟩ : Shape) ![] h2 (constant (F := Ideal) ⟨0, ![]⟩ .f32 0x3F800000#32) (ix1 r)
      = Ideal.ofBits .f32 0x3F800000#32 :=
  broadcastInDim_apply _ h2 _ (ix1 r) ix0 (fun a => a.elim0)

/-- A vector of length n ≠ 1 turned into a column reads, at (r, 0), the vector at r. -/
theorem column_apply {α : Type} {n : ℕ} (hn : n ≠ 1)
    (h1 : (⟨1, ![n]⟩ : Shape).BroadcastsInDim ⟨2, ![n, 1]⟩ (![0] : Fin 1 → Fin 2)) (v : (⟨1, ![n]⟩ : Shape).Idx → α) (r : Fin n) :
    broadcastInDim (⟨2, ![n, 1]⟩ : Shape) ![0] h1 v (ix2 r (0 : Fin 1)) = v (ix1 r) :=
  broadcastInDim_apply _ h1 v (ix2 r (0 : Fin 1)) (ix1 r) (fun a => match a with
    | ⟨0, _⟩ => by
      show r.val = if n = 1 then 0 else r.val
      rw [if_neg hn])

/-- The column of reciprocals at row r is the quotient of 1 by the vector's entry r. -/
theorem recipCol_apply {n : ℕ} (hn : n ≠ 1)
    (h1 : (⟨1, ![n]⟩ : Shape).BroadcastsInDim ⟨2, ![n, 1]⟩ (![0] : Fin 1 → Fin 2))
    (h2 : (⟨0, ![]⟩ : Shape).BroadcastsInDim ⟨1, ![n]⟩ (![] : Fin 0 → Fin 1))
    (d : FVec Ideal (⟨1, ![n]⟩ : Shape) .f32) (r : Fin n) :
    broadcastInDim (⟨2, ![n, 1]⟩ : Shape) ![0] h1
        (Host.divf (F := Ideal) (broadcastInDim (⟨1, ![n]⟩ : Shape) ![] h2 (constant (F := Ideal) ⟨0, ![]⟩ .f32 0x3F800000#32)) d)
        (ix2 r (0 : Fin 1))
      = Ideal.div (Ideal.ofBits .f32 0x3F800000#32) (d (ix1 r)) :=
  (column_apply hn h1 _ r).trans (congrArg (fun x : EReal => Ideal.div x (d (ix1 r))) (ones_apply h2 r))

end Cert.RecipColumn

end
-- ==== Proof.KernelValue.lean ====
/-
  The idealized kernel program's result as a function of its arguments.

  Between the launch and the first kernel the host gathers the node features h0 = emb[x], scatter-adds the
  in-degrees cnt and the neighbour sums agg1 of h0, and forms the column 1 / max(cnt, 1); the first kernel then
  leaves h1 = layer(agg1 · (1 / max(cnt, 1)), h0); the host scatter-adds the neighbour sums agg2 of h1; the second
  kernel leaves the projection of layer(agg2 · (1 / max(cnt, 1)), h1).  Multiplying by the reciprocal of the
  clamped degree is dividing by it, so every stage is the reference's stage of the same arrays, and the result is
  the reference's result term of the kernel's own arguments.
-/
import proofs.«165761_j30520037605447_1_alg».proof.Proof.KernelRun
import proofs.«165761_j30520037605447_1_alg».proof.Proof.Region0
import proofs.«165761_j30520037605447_1_alg».proof.Proof.Region1
import proofs.«165761_j30520037605447_1_alg».proof.Proof.RefValue
import proofs.«165761_j30520037605447_1_alg».proof.Proof.LibRecipColumn
import Idealize.ShloMosaic.Lib.StableHlo.Run
import Idealize.ShloMosaic.Lib.ValueLayout

set_option maxRecDepth 16384

noncomputable section

namespace Cert.KernelIdeal.WholeValue

open Cert.KernelIdeal Cert.KernelIdeal.Gen Cert.Sage
open Idealize.ShloMosaic Idealize.ShloMosaic.TcCoe Idealize.ShloMosaic.ValueIdx Idealize.ShloMosaic.StableHlo
open Idealize.SL Idealize.SL.Sem
open Cert.ReferenceIdeal.Read (val_main_v1 val_main_v3 val_main_v10 val_main_v20 val_main_v26 val_main_v40 val_main_v50
  val_main_v56 val_main_v74)
open Cert.ReferenceIdeal.RefValue (meanOf)

variable (m : (ℓ : Loc nD τ sig) → Buf (Elt Ideal) ℓ) (ρ : Dev nD → PrngReg) (c : Dev nD)

set_option quotPrecheck false

local notation "A0" => m ((c.tc : Thread nD τ).loc main_arg0)
local notation "A1" => m ((c.tc : Thread nD τ).loc main_arg1)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)

/-! ## The operands of the first kernel, as the host leaves them -/

set_option maxRecDepth 200000 in
/-- The edges' source nodes. -/
theorem e_src : (W1 m ρ c (Proc.devRef .tc main_v1) : (⟨S1250000, .i32⟩ : BufTy).Contents (Elt Ideal)) = val_main_v1 (F := Ideal) A1 := by
  dsimp only [W1, hostOps0]
  after_results_simp <;> rfl

set_option maxRecDepth 200000 in
/-- The edges' destination nodes. -/
theorem e_dst : (W1 m ρ c (Proc.devRef .tc main_v3) : (⟨S1250000, .i32⟩ : BufTy).Contents (Elt Ideal)) = val_main_v3 (F := Ideal) A1 := by
  dsimp only [W1, hostOps0]
  after_results_simp <;> rfl

set_option maxRecDepth 200000 in
/-- The neighbour sums of the gathered node features. -/
theorem e_agg1 : (V1 m ρ c main_v29 : S100000x64.Idx → EReal) = val_main_v20 (F := Ideal) A0 A1 A3 := by
  dsimp only [V1, W1, hostOps0]
  after_results_simp <;> rfl

set_option maxRecDepth 200000 in
/-- The gathered node features. -/
theorem e_h0 : (V1 m ρ c main_v10 : S100000x64.Idx → EReal) = val_main_v10 (F := Ideal) A0 A3 := by
  dsimp only [V1, W1, hostOps0]
  after_results_simp <;> rfl

set_option maxRecDepth 200000 in
/-- The column of reciprocal clamped degrees, whole. -/
theorem e_rc_whole : (V1 m ρ c main_v19 : S100000x1.Idx → EReal)
    = broadcastInDim S100000x1 ![0] bcast_S100000_S100000x1_0
        (Host.divf (F := Ideal) (broadcastInDim S100000 ![] bcast_S_S100000 (constant (F := Ideal) S_ .f32 0x3F800000#32))
          (val_main_v26 (F := Ideal) A1)) := by
  dsimp only [V1, W1, hostOps0]
  after_results_simp <;> rfl

set_option maxRecDepth 200000 in
/-- The column at node r: one over the clamped degree of r. -/
theorem e_rc (r : Fin 100000) :
    (V1 m ρ c main_v19 : S100000x1.Idx → EReal) (ix2 r (0 : Fin 1)) = Ideal.div o32 (val_main_v26 (F := Ideal) A1 (ix1 r)) := by
  rw [e_rc_whole]
  exact Cert.RecipColumn.recipCol_apply (by decide) bcast_S100000_S100000x1_0 bcast_S_S100000 (val_main_v26 (F := Ideal) A1) r

set_option maxRecDepth 200000 in
/-- The first layer's weights, as launched. -/
theorem e_Wl1 : (V1 m ρ c main_arg4 : S64x64.Idx → EReal) = A4 := by
  dsimp only [V1, W1, hostOps0]
  after_results_simp <;> rfl

set_option maxRecDepth 200000 in
theorem e_Wr1 : (V1 m ρ c main_arg6 : S64x64.Idx → EReal) = A6 := by
  dsimp only [V1, W1, hostOps0]
  after_results_simp <;> rfl

set_option maxRecDepth 200000 in
/-- The first layer's bias as a row. -/
theorem e_bl1_whole : (V1 m ρ c main_v30 : S1x64.Idx → EReal) = shapeCast S1x64 A5 shapeCasts_S64_S1x64 := by
  dsimp only [V1, W1, hostOps0]
  after_results_simp <;> rfl

theorem e_bl1 (k : Fin 64) : (V1 m ρ c main_v30 : S1x64.Idx → EReal) (ix2 (0 : Fin 1) k) = A5 (ix1 k) := by
  rw [e_bl1_whole]
  exact shapeCast_a_1a_apply _ _ 0 k

set_option maxRecDepth 200000 in
/-- The first layer's slope as a 1 × 1 array. -/
theorem e_a1_whole : (V1 m ρ c main_v31 : S1x1.Idx → EReal) = shapeCast S1x1 A7 shapeCasts_S_S1x1 := by
  dsimp only [V1, W1, hostOps0]
  after_results_simp <;> rfl

/-- A scalar reshaped to 1 × 1 reads the scalar. -/
theorem scalar_11 (x : S_.Idx → EReal) : shapeCast S1x1 x shapeCasts_S_S1x1 (ix2 (0 : Fin 1) (0 : Fin 1)) = x ix0 :=
  shapeCast_apply x shapeCasts_S_S1x1 _ _ (by
    have h1 := (S_.rowMajor ix0).isLt
    have h2 := (S1x1.rowMajor (ix2 (0 : Fin 1) (0 : Fin 1))).isLt
    have e1 : S_.numel = 1 := rfl
    have e2 : S1x1.numel = 1 := rfl
    omega)

theorem e_a1 : (V1 m ρ c main_v31 : S1x1.Idx → EReal) (ix2 (0 : Fin 1) (0 : Fin 1)) = A7 ix0 := by
  rw [e_a1_whole]
  exact scalar_11 _

/-! ## What the first kernel leaves: the reference's first-layer activations -/

/-- The first kernel's output array is the reference's first-layer stage of the same arguments. -/
theorem h1K : Region0.G (V1 m ρ) c = val_main_v40 (F := Ideal) A0 A1 A3 A4 A5 A6 A7 := by
  rw [Cert.ReferenceIdeal.RefValue.h1_eq]
  exact Hl_congr
    (funext fun i => by rw [e_agg1 m ρ c, e_rc m ρ c (rowOf i)]; exact Cert.ReferenceIdeal.RefValue.mean_law A1 _ i)
    (e_h0 m ρ c) (e_Wl1 m ρ c) (e_Wr1 m ρ c) (funext fun k => e_bl1 m ρ c k) (e_a1 m ρ c)

/-! ## The buffers at the first kernel's exit -/

theorem w2_src : (W2 m ρ c (Proc.devRef .tc main_v1) : (⟨S1250000, .i32⟩ : BufTy).Contents (Elt Ideal)) = val_main_v1 (F := Ideal) A1 :=
  (W2_of_ne m ρ c main_v1 (by decide)).trans (e_src m ρ c)

theorem w2_dst : (W2 m ρ c (Proc.devRef .tc main_v3) : (⟨S1250000, .i32⟩ : BufTy).Contents (Elt Ideal)) = val_main_v3 (F := Ideal) A1 :=
  (W2_of_ne m ρ c main_v3 (by decide)).trans (e_dst m ρ c)

theorem w2_h1 : (W2 m ρ c (Proc.devRef .tc main_v32) : S100000x64.Idx → EReal) = val_main_v40 (F := Ideal) A0 A1 A3 A4 A5 A6 A7 :=
  (W2_arr m ρ c 7).trans ((Region0.final (V1 m ρ) c).trans (h1K m ρ c))

theorem w2_rc : (W2 m ρ c (Proc.devRef .tc main_v19) : S100000x1.Idx → EReal) = V1 m ρ c main_v19 :=
  (W2_arr m ρ c 1).trans (((dat0 (V1 m ρ) c).arrAt_in 1 rfl _).trans (A_eq0 (V1 m ρ) c 1))

set_option maxRecDepth 200000 in
theorem w1_arg8 : W1 m ρ c (Proc.devRef .tc main_arg8) = A8 := by
  dsimp only [W1, hostOps0]
  after_results_simp <;> rfl

theorem w2_arg8 : W2 m ρ c (Proc.devRef .tc main_arg8) = A8 :=
  (W2_of_ne m ρ c main_arg8 (by decide)).trans (w1_arg8 m ρ c)

set_option maxRecDepth 200000 in
theorem w1_arg9 : W1 m ρ c (Proc.devRef .tc main_arg9) = A9 := by
  dsimp only [W1, hostOps0]
  after_results_simp <;> rfl

theorem w2_arg9 : W2 m ρ c (Proc.devRef .tc main_arg9) = A9 :=
  (W2_of_ne m ρ c main_arg9 (by decide)).trans (w1_arg9 m ρ c)

set_option maxRecDepth 200000 in
theorem w1_arg10 : W1 m ρ c (Proc.devRef .tc main_arg10) = A10 := by
  dsimp only [W1, hostOps0]
  after_results_simp <;> rfl

theorem w2_arg10 : W2 m ρ c (Proc.devRef .tc main_arg10) = A10 :=
  (W2_of_ne m ρ c main_arg10 (by decide)).trans (w1_arg10 m ρ c)

set_option maxRecDepth 200000 in
theorem w1_arg11 : W1 m ρ c (Proc.devRef .tc main_arg11) = A11 := by
  dsimp only [W1, hostOps0]
  after_results_simp <;> rfl

theorem w2_arg11 : W2 m ρ c (Proc.devRef .tc main_arg11) = A11 :=
  (W2_of_ne m ρ c main_arg11 (by decide)).trans (w1_arg11 m ρ c)

set_option maxRecDepth 200000 in
theorem w1_arg12 : W1 m ρ c (Proc.devRef .tc main_arg12) = A12 := by
  dsimp only [W1, hostOps0]
  after_results_simp <;> rfl

theorem w2_arg12 : W2 m ρ c (Proc.devRef .tc main_arg12) = A12 :=
  (W2_of_ne m ρ c main_arg12 (by decide)).trans (w1_arg12 m ρ c)

set_option maxRecDepth 200000 in
theorem w1_arg13 : W1 m ρ c (Proc.devRef .tc main_arg13) = A13 := by
  dsimp only [W1, hostOps0]
  after_results_simp <;> rfl

theorem w2_arg13 : W2 m ρ c (Proc.devRef .tc main_arg13) = A13 :=
  (W2_of_ne m ρ c main_arg13 (by decide)).trans (w1_arg13 m ρ c)

/-! ## The operands of the second kernel -/

set_option maxRecDepth 200000 in
/-- The neighbour sums of the first layer's activations: the reference's stage. -/
theorem f_agg2 : (V3 m ρ c main_v42 : S100000x64.Idx → EReal) = val_main_v50 (F := Ideal) A0 A1 A3 A4 A5 A6 A7 := by
  dsimp only [V3, W3, hostOps1]
  after_results_simp
  rw [w2_src, w2_dst, w2_h1]
  rfl

theorem f_rc_whole : (V3 m ρ c main_v19 : S100000x1.Idx → EReal) = V1 m ρ c main_v19 := by
  dsimp only [V3, W3, hostOps1]
  after_results_simp
  exact w2_rc m ρ c

theorem f_rc (r : Fin 100000) :
    (V3 m ρ c main_v19 : S100000x1.Idx → EReal) (ix2 r (0 : Fin 1)) = Ideal.div o32 (val_main_v26 (F := Ideal) A1 (ix1 r)) := by
  rw [f_rc_whole]; exact e_rc m ρ c r

theorem f_h1 : (V3 m ρ c main_v32 : S100000x64.Idx → EReal) = val_main_v40 (F := Ideal) A0 A1 A3 A4 A5 A6 A7 := by
  dsimp only [V3, W3, hostOps1]
  after_results_simp
  exact w2_h1 m ρ c

theorem f_Wl2 : (V3 m ρ c main_arg8 : S64x64.Idx → EReal) = A8 := by
  dsimp only [V3, W3, hostOps1]
  after_results_simp
  exact w2_arg8 m ρ c

theorem f_Wr2 : (V3 m ρ c main_arg10 : S64x64.Idx → EReal) = A10 := by
  dsimp only [V3, W3, hostOps1]
  after_results_simp
  exact w2_arg10 m ρ c

theorem f_Wo : (V3 m ρ c main_arg12 : S64x64.Idx → EReal) = A12 := by
  dsimp only [V3, W3, hostOps1]
  after_results_simp
  exact w2_arg12 m ρ c

theorem f_bl2 (k : Fin 64) : (V3 m ρ c main_v43 : S1x64.Idx → EReal) (ix2 (0 : Fin 1) k) = A9 (ix1 k) := by
  have e : (V3 m ρ c main_v43 : S1x64.Idx → EReal) = shapeCast S1x64 A9 shapeCasts_S64_S1x64 := by
    dsimp only [V3, W3, hostOps1]
    after_results_simp
    rw [w2_arg9]
    rfl
  rw [e]
  exact shapeCast_a_1a_apply _ _ 0 k

theorem f_bo (q : Fin 64) : (V3 m ρ c main_v45 : S1x64.Idx → EReal) (ix2 (0 : Fin 1) q) = A13 (ix1 q) := by
  have e : (V3 m ρ c main_v45 : S1x64.Idx → EReal) = shapeCast S1x64 A13 shapeCasts_S64_S1x64 := by
    dsimp only [V3, W3, hostOps1]
    after_results_simp
    rw [w2_arg13]
    rfl
  rw [e]
  exact shapeCast_a_1a_apply _ _ 0 q

theorem f_a2 : (V3 m ρ c main_v44 : S1x1.Idx → EReal) (ix2 (0 : Fin 1) (0 : Fin 1)) = A11 ix0 := by
  have e : (V3 m ρ c main_v44 : S1x1.Idx → EReal) = shapeCast S1x1 A11 shapeCasts_S_S1x1 := by
    dsimp only [V3, W3, hostOps1]
    after_results_simp
    rw [w2_arg11]
    rfl
  rw [e]
  exact scalar_11 _

/-! ## The result -/

/-- The second kernel's output array is the reference's result term of the same arguments. -/
theorem result_eq : (dat1 (V3 m ρ) c).arrAt 9 cfg1.N
    = val_main_v74 (F := Ideal) A0 A1 A3 A4 A5 A6 A7 A8 A9 A10 A11 A12 A13 := by
  rw [Region1.final (V3 m ρ) c, Cert.ReferenceIdeal.RefValue.out_eq, Cert.ReferenceIdeal.RefValue.cl_eq]
  exact Ho_congr
    (funext fun i => by rw [f_agg2 m ρ c, f_rc m ρ c (rowOf i)]; exact Cert.ReferenceIdeal.RefValue.mean_law A1 _ i)
    (f_h1 m ρ c) (f_Wl2 m ρ c) (f_Wr2 m ρ c) (funext fun k => f_bl2 m ρ c k) (f_a2 m ρ c) (f_Wo m ρ c)
    (funext fun q => f_bo m ρ c q)

/-- THE RUN of the idealized kernel program, read: it terminates, nothing faulting; its result array holds the
    reference's result term of its own arguments; its arguments are as launched. -/
theorem run_value : θ_run defs (onTc (τ := τ) (main (F := Ideal))) ⟨m, fun _ => 0, ρ⟩ (fun r => ∀ c : Dev nD,
      r.2.mem ((c.tc : Thread nD τ).loc main_v46)
        = val_main_v74 (F := Ideal) (m ((c.tc : Thread nD τ).loc main_arg0)) (m ((c.tc : Thread nD τ).loc main_arg1))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq m ρ c), (h c).2⟩)
    (Cert.KernelIdeal.WholeRun.run_result m ρ)

end Cert.KernelIdeal.WholeValue

end
-- ==== Proof.lean ====
/-
  Two GraphSAGE layers with PReLU and an output projection over 100000 nodes and 1250000 edges: a program that
  runs each layer's dense part as a kernel tiled over the nodes, against a reference that computes everything in
  whole-array operations.

  Both programs gather the node features h0 = emb[x], scatter-add the in-degrees cnt and, per layer, the neighbour
  sums agg of the current features; these index operations are the same functions of the same arrays on both
  sides and are never opened.  Per layer the reference computes
      PReLU_a( (agg / max(cnt, 1)) · Wl + bl + h · Wr ),
  while the kernel program forms the column 1 / max(cnt, 1) once on the host and each kernel multiplies the
  neighbour sums by it; the final projection h2 · Wout + bout is a separate whole-array product in the reference
  and fused into the second kernel.  On the extended reals:
    · each kernel tile holds the layer formula of its 10000 nodes, the ten tiles cover the nodes, so each kernel's
      output array is the layer over all nodes (the casts to bf16 in front of the products are the identity, and a
      product into a zero accumulator is the plain sum over the inner axis, as the reference's product is);
    · x · (1 / c) = x / c for c = max(cnt, 1), because c ≥ 1 is never zero: both are x · c⁻¹, also at the
      infinities, so no finiteness of the inputs is used.
  Hence the kernel program's result array is the reference's result term of the same arguments.

  The three frames: the two kernel programs' are the generated frame certificates; the reference's is its run with
  the result forgotten.  The idealization rewrote nothing, so it preserves the program trivially.
-/
import proofs.«165761_j30520037605447_1_alg».proof.Defs
import proofs.«165761_j30520037605447_1_alg».proof.Proof.Gen.Kernel
import proofs.«165761_j30520037605447_1_alg».proof.Proof.Gen.Kernel.Skeleton
import proofs.«165761_j30520037605447_1_alg».proof.Proof.Gen.Kernel.Launch
import proofs.«165761_j30520037605447_1_alg».proof.Proof.Gen.Kernel.Points
import proofs.«165761_j30520037605447_1_alg».proof.Proof.Gen.Kernel.Frame
import proofs.«165761_j30520037605447_1_alg».proof.Proof.Gen.KernelIdeal
import proofs.«165761_j30520037605447_1_alg».proof.Proof.Gen.KernelIdeal.Skeleton
import proofs.«165761_j30520037605447_1_alg».proof.Proof.Gen.KernelIdeal.Launch
import proofs.«165761_j30520037605447_1_alg».proof.Proof.Gen.KernelIdeal.Points
import proofs.«165761_j30520037605447_1_alg».proof.Proof.Gen.KernelIdeal.Frame
import proofs.«165761_j30520037605447_1_alg».proof.Proof.Gen.ReferenceIdeal
import proofs.«165761_j30520037605447_1_alg».proof.Proof.Gen.Pre_finite_inputs
import proofs.«165761_j30520037605447_1_alg».proof.Proof.Gen.ReferenceIdeal.Run
import proofs.«165761_j30520037605447_1_alg».proof.Proof.Gen.ReferenceIdeal.Read
import proofs.«165761_j30520037605447_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the reference's
    result term of the arguments, which the kernel program's run reaches by the layer formulas and the
    reciprocal-is-division law, and the reference's run states outright. -/
theorem algebraic : Cert.algebraic_KernelIdeal_ReferenceIdeal := by
  intro m ρ m' ρ' _ hagree
  refine ⟨_, Cert.KernelIdeal.WholeValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v74_eq, h0, h1, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
